-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  main_v18

def fn {F : FTy → Type} [FloatOps F] (main_arg0 : FVec F S50000x96 .f32) (main_arg1 : IVec S2x800000 32) (main_arg2 : FVec F S96x96 .f32) (main_arg3 : FVec F S96 .f32) (main_arg4 : FVec F S96x96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000x1 : Shape := ⟨2, ![50000, 1]⟩
abbrev S5000x96 : Shape := ⟨2, ![5000, 96]⟩
abbrev S1x96 : Shape := ⟨2, ![1, 96]⟩

abbrev nBuf : Space → Nat
  | .hbm => 36
  | .vmem => 9
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x96, .f32⟩
  | .hbm, ⟨18, _⟩ => ⟨S_, .f32⟩
  | .hbm, ⟨19, _⟩ => ⟨S50000x96, .f32⟩
  | .hbm, ⟨20, _⟩ => ⟨S800000x1, .i32⟩
  | .hbm, ⟨21, _⟩ => ⟨S50000x96, .f32⟩
  | .hbm, ⟨22, _⟩ => ⟨S_, .f32⟩
  | .hbm, ⟨23, _⟩ => ⟨S800000x1, .f32⟩
  | .hbm, ⟨24, _⟩ => ⟨S_, .f32⟩
  | .hbm, ⟨25, _⟩ => ⟨S50000x1, .f32⟩
  | .hbm, ⟨26, _⟩ => ⟨S800000x1, .i32⟩
  | .hbm, ⟨27, _⟩ => ⟨S50000x1, .f32⟩
  | .hbm, ⟨28, _⟩ => ⟨S_, .f32⟩
  | .hbm, ⟨29, _⟩ => ⟨S50000x1, .f32⟩
  | .hbm, ⟨30, _⟩ => ⟨S50000x1, .f32⟩
  | .hbm, ⟨31, _⟩ => ⟨S50000x96, .f32⟩
  | .hbm, ⟨32, _⟩ => ⟨S50000x96, .f32⟩
  | .hbm, ⟨33, _⟩ => ⟨S96x96, .f32⟩
  | .hbm, ⟨34, _⟩ => ⟨S96x96, .f32⟩
  | .hbm, ⟨35, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x96, .f32⟩
  | .local _ .vmem, ⟨5, _⟩ => ⟨S96x96, .f32⟩
  | .local _ .vmem, ⟨6, _⟩ => ⟨S96, .f32⟩
  | .local _ .vmem, ⟨7, _⟩ => ⟨S5000x96, .f32⟩
  | .local _ .vmem, ⟨8, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x96_0_1 : S50000x1.BroadcastsInDim S50000x96 (![0, 1] : Fin 2 → Fin S50000x96.rank)
  transposes_S96x96_S96x96_1_0 : S96x96.Transposes [1, 0] S96x96
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S96_S96_0 : ∀ a, (![0] : Fin 1 → Nat) a + S96.size a ≤ S96.size a
  h_S96 : 0 < S96.numel
  shapeCasts_S96_S1x96 : S96.ShapeCasts S1x96
  broadcasts_S1x96_S5000x96 : S1x96.Broadcasts S5000x96
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000x1_S800000x1_S800000x1_1_0_0_1_wf : ScatterDims.WF S50000x1 S800000x1 S800000x1 [1] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96.size a ≤ S96.size a
  hwx0_4 : ∀ i : grid0.Coords, EltTy.bits .f32 = 32 ∨ (Rect.block (s := S96) S96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩

abbrev nBuf : Space → Nat
  | .hbm => 44
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x96, .f32⟩
  | .hbm, ⟨18, _⟩ => ⟨S_, .f32⟩
  | .hbm, ⟨19, _⟩ => ⟨S50000x96, .f32⟩
  | .hbm, ⟨20, _⟩ => ⟨S800000x1, .i32⟩
  | .hbm, ⟨21, _⟩ => ⟨S50000x96, .f32⟩
  | .hbm, ⟨22, _⟩ => ⟨S_, .f32⟩
  | .hbm, ⟨23, _⟩ => ⟨S800000x1, .f32⟩
  | .hbm, ⟨24, _⟩ => ⟨S_, .f32⟩
  | .hbm, ⟨25, _⟩ => ⟨S50000x1, .f32⟩
  | .hbm, ⟨26, _⟩ => ⟨S800000x1, .i32⟩
  | .hbm, ⟨27, _⟩ => ⟨S50000x1, .f32⟩
  | .hbm, ⟨28, _⟩ => ⟨S_, .f32⟩
  | .hbm, ⟨29, _⟩ => ⟨S50000x1, .f32⟩
  | .hbm, ⟨30, _⟩ => ⟨S50000x1, .f32⟩
  | .hbm, ⟨31, _⟩ => ⟨S50000x96, .f32⟩
  | .hbm, ⟨32, _⟩ => ⟨S50000x96, .f32⟩
  | .hbm, ⟨33, _⟩ => ⟨S96x96, .f32⟩
  | .hbm, ⟨34, _⟩ => ⟨S50000x96, .f32⟩
  | .hbm, ⟨35, _⟩ => ⟨S1x96, .f32⟩
  | .hbm, ⟨36, _⟩ => ⟨S50000x96, .f32⟩
  | .hbm, ⟨37, _⟩ => ⟨S50000x96, .f32⟩
  | .hbm, ⟨38, _⟩ => ⟨S96x96, .f32⟩
  | .hbm, ⟨39, _⟩ => ⟨S50000x96, .f32⟩
  | .hbm, ⟨40, _⟩ => ⟨S50000x96, .f32⟩
  | .hbm, ⟨41, _⟩ => ⟨S_, .f32⟩
  | .hbm, ⟨42, _⟩ => ⟨S50000x96, .f32⟩
  | .hbm, ⟨43, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_cst : Ref sig .tc := ⟨.hbm, 41, rfl⟩
abbrev main_call0_v0 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x96_0_1 : S50000x1.BroadcastsInDim S50000x96 (![0, 1] : Fin 2 → Fin S50000x96.rank)
  transposes_S96x96_S96x96_1_0 : S96x96.Transposes [1, 0] S96x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000x1_S800000x1_S800000x1_1_0_0_1_wf : ScatterDims.WF S50000x1 S800000x1 S800000x1 [1] [0] [0] 1
  dot_S50000x96_S96x96_S50000x96_1_0_0_1_n_n_wf : DotDims.WF S50000x96 S96x96 S50000x96 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.BlockReads.lean ====
/-
  Where each tile's blocks sit in their arrays.

  The grid has ten points; point `t` works on nodes 5000·t … 5000·t + 4999. Its windows: the features' rows and the
  neighbourhood means' rows of that tile (block index (t, 0)), the two weight matrices and the bias whole (block index
  0 at every point), and the output's rows of that tile (block index (t, 0)). A block's coordinate in its array is
  always  block index × block extent + coordinate inside the block,  so row `p` of tile `t` is row 5000·t + p of the
  array, while a weight or bias entry is at the same place in block and array.

  A read through a block is arithmetic on coordinates and has nothing to do with what the array holds, so each read is
  proved for an ARBITRARY array from the block's index as a hypothesis, and only then said of the arrays the region finds,
  at the index maps decided over the ten points.
-/
import proofs.«154942_j76132590289373_1_alg».proof.Proof.Gen.KernelIdeal.Frame
import Idealize.ShloMosaic.Lib.ValueIdx
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps over the ten grid points: the three row windows are at block (t, 0), the weights and the bias
    at block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of tile `t` is this row of the array. -/
def rowOf (t : Fin cfg0.N) (p : Fin 5000) : Fin 50000 :=
  ⟨t.val * 5000 + p.val, by have h := t.isLt; have hN : cfg0.N = 10 := N_0; have := p.isLt; omega⟩

/-! ## Any array read through a block -/

/-- ANY array read through window 0's block at point `t`, at (p, k), is that array at (row P, k), P = 5000·t + p. -/
theorem rows_read0 (A : S50000x96.Idx → EReal) (t : Fin cfg0.N) (p : Fin 5000) (k : Fin 96) (P : Fin 50000)
    (e0 : win0_0.index t (0 : Fin 2) = t.val) (e1 : win0_0.index t (1 : Fin 2) = 0) (hP : P.val = t.val * 5000 + p.val) :
    (((cfg0.win 0).blk t).view.read (Elt Ideal) A : Vec Ideal S5000x96 .f32) (ix2 p k) = A (ix2 P k) := by
  rw [View.read_apply]
  refine congrArg A (funext fun (a : Fin 2) => Fin.ext ?_)
  match a with
  | ⟨0, _⟩ => show win0_0.index t (0 : Fin 2) * 5000 + 1 * p.val = P.val; rw [e0, hP]; omega
  | ⟨1, _⟩ => show win0_0.index t (1 : Fin 2) * 96 + 1 * k.val = k.val; rw [e1]; omega

/-- ANY array read through window 1's block at point `t`, at (p, k), is that array at (row P, k), P = 5000·t + p. -/
theorem rows_read1 (A : S50000x96.Idx → EReal) (t : Fin cfg0.N) (p : Fin 5000) (k : Fin 96) (P : Fin 50000)
    (e0 : win0_1.index t (0 : Fin 2) = t.val) (e1 : win0_1.index t (1 : Fin 2) = 0) (hP : P.val = t.val * 5000 + p.val) :
    (((cfg0.win 1).blk t).view.read (Elt Ideal) A : Vec Ideal S5000x96 .f32) (ix2 p k) = A (ix2 P k) := by
  rw [View.read_apply]
  refine congrArg A (funext fun (a : Fin 2) => Fin.ext ?_)
  match a with
  | ⟨0, _⟩ => show win0_1.index t (0 : Fin 2) * 5000 + 1 * p.val = P.val; rw [e0, hP]; omega
  | ⟨1, _⟩ => show win0_1.index t (1 : Fin 2) * 96 + 1 * k.val = k.val; rw [e1]; omega

/-- ANY matrix read through window 2's block at block index 0 is that matrix. -/
theorem whole_read2 (A : S96x96.Idx → EReal) (t : Fin cfg0.N) (k q : Fin 96)
    (e0 : win0_2.index t (0 : Fin 2) = 0) (e1 : win0_2.index t (1 : Fin 2) = 0) :
    (((cfg0.win 2).blk t).view.read (Elt Ideal) A : Vec Ideal S96x96 .f32) (ix2 k q) = A (ix2 k q) := by
  rw [View.read_apply]
  refine congrArg A (funext fun (a : Fin 2) => Fin.ext ?_)
  match a with
  | ⟨0, _⟩ => show win0_2.index t (0 : Fin 2) * 96 + 1 * k.val = k.val; rw [e0]; omega
  | ⟨1, _⟩ => show win0_2.index t (1 : Fin 2) * 96 + 1 * q.val = q.val; rw [e1]; omega

/-- ANY matrix read through window 3's block at block index 0 is that matrix. -/
theorem whole_read3 (A : S96x96.Idx → EReal) (t : Fin cfg0.N) (k q : Fin 96)
    (e0 : win0_3.index t (0 : Fin 2) = 0) (e1 : win0_3.index t (1 : Fin 2) = 0) :
    (((cfg0.win 3).blk t).view.read (Elt Ideal) A : Vec Ideal S96x96 .f32) (ix2 k q) = A (ix2 k q) := by
  rw [View.read_apply]
  refine congrArg A (funext fun (a : Fin 2) => Fin.ext ?_)
  match a with
  | ⟨0, _⟩ => show win0_3.index t (0 : Fin 2) * 96 + 1 * k.val = k.val; rw [e0]; omega
  | ⟨1, _⟩ => show win0_3.index t (1 : Fin 2) * 96 + 1 * q.val = q.val; rw [e1]; omega

/-- ANY vector read through window 4's block at block index 0 is that vector. -/
theorem whole_read4 (A : S96.Idx → EReal) (t : Fin cfg0.N) (q : Fin 96) (e4 : win0_4.index t (0 : Fin 1) = 0) :
    (((cfg0.win 4).blk t).view.read (Elt Ideal) A : Vec Ideal S96 .f32) (ix1 q) = A (ix1 q) := by
  rw [View.read_apply]
  refine congrArg A (funext fun (a : Fin 1) => Fin.ext ?_)
  match a with
  | ⟨0, _⟩ => show win0_4.index t (0 : Fin 1) * 96 + 1 * q.val = q.val; rw [e4]; omega

/-- Entry (p, q) of an output tile at block index (t, 0) sits at (row P, q) of the output array, P = 5000·t + p. -/
theorem out_place_of (t : Fin cfg0.N) (p : Fin 5000) (q : Fin 96) (P : Fin 50000)
    (e50 : win0_5.index t (0 : Fin 2) = t.val) (e51 : win0_5.index t (1 : Fin 2) = 0) (hP : P.val = t.val * 5000 + p.val) :
    ((cfg0.win 5).blk t).view.emb (ix2 p q) = (ix2 P q : S50000x96.Idx) := by
  refine funext fun (a : Fin 2) => Fin.ext ?_
  match a with
  | ⟨0, _⟩ => show win0_5.index t (0 : Fin 2) * 5000 + 1 * p.val = P.val; rw [e50, hP]; omega
  | ⟨1, _⟩ => show win0_5.index t (1 : Fin 2) * 96 + 1 * q.val = q.val; rw [e51]; omega

/-! ## The five input blocks of a point, as the arrays the region finds -/

/-- The features block of tile `t` at (p, k) is the features array at (5000·t + p, k). -/
theorem feats_block (c : Dev nD) (t : Fin cfg0.N) (p : Fin 5000) (k : Fin 96) :
    (iblk m c 0 t : Vec Ideal S5000x96 .f32) (ix2 p k) = (V m c main_arg0 : S50000x96.Idx → EReal) (ix2 (rowOf t p) k) :=
  rows_read0 (V m c main_arg0) t p k (rowOf t p) (block_index t).1 (block_index t).2.1 rfl

/-- The means block of tile `t` at (p, k) is the means array at (5000·t + p, k). -/
theorem means_block (c : Dev nD) (t : Fin cfg0.N) (p : Fin 5000) (k : Fin 96) :
    (iblk m c 1 t : Vec Ideal S5000x96 .f32) (ix2 p k) = (V m c main_v21 : S50000x96.Idx → EReal) (ix2 (rowOf t p) k) :=
  rows_read1 (V m c main_v21) t p k (rowOf t p) (block_index t).2.2.1 (block_index t).2.2.2.1 rfl

/-- The neighbour-weights block is the whole matrix at every point. -/
theorem wl_block (c : Dev nD) (t : Fin cfg0.N) (k q : Fin 96) :
    (iblk m c 2 t : Vec Ideal S96x96 .f32) (ix2 k q) = (V m c main_v22 : S96x96.Idx → EReal) (ix2 k q) :=
  whole_read2 (V m c main_v22) t k q (block_index t).2.2.2.2.1 (block_index t).2.2.2.2.2.1

/-- The self-weights block is the whole matrix at every point. -/
theorem wr_block (c : Dev nD) (t : Fin cfg0.N) (k q : Fin 96) :
    (iblk m c 3 t : Vec Ideal S96x96 .f32) (ix2 k q) = (V m c main_v23 : S96x96.Idx → EReal) (ix2 k q) :=
  whole_read3 (V m c main_v23) t k q (block_index t).2.2.2.2.2.2.1 (block_index t).2.2.2.2.2.2.2.1

/-- The bias block is the whole bias at every point. -/
theorem bias_block (c : Dev nD) (t : Fin cfg0.N) (q : Fin 96) :
    (iblk m c 4 t : Vec Ideal S96 .f32) (ix1 q) = (V m c main_arg3 : S96.Idx → EReal) (ix1 q) :=
  whole_read4 (V m c main_arg3) t q (block_index t).2.2.2.2.2.2.2.2.1

/-- Entry (p, q) of the output's tile `t` sits at (5000·t + p, q) of the output array. -/
theorem out_place (t : Fin cfg0.N) (p : Fin 5000) (q : Fin 96) :
    ((cfg0.win 5).blk t).view.emb (ix2 p q) = (ix2 (rowOf t p) q : S50000x96.Idx) :=
  out_place_of t p q (rowOf t p) (block_index t).2.2.2.2.2.2.2.2.2.1 (block_index t).2.2.2.2.2.2.2.2.2.2 rfl

end Cert.KernelIdeal.Whole

end
-- ==== Proof.Spec.lean ====
/-
  The last step of a neighbourhood-mean graph layer, as ONE function of whole arrays.

  Given the node features `x` and the neighbourhood means `agg` (both 50000 × 96, one row per node), the two
  weight matrices already transposed, `wl` and `wr` (96 × 96: row = input feature, column = output feature), and
  the bias `b` (96 entries), the entry of the result for node `p` and output feature `q` is

      max ( Σ_k agg[p,k] · wl[k,q]  +  Σ_k x[p,k] · wr[k,q]  +  b[q] ,  0 )

  over the extended reals. It depends on ROW `p` of `agg` and of `x`, on COLUMN `q` of each weight matrix and on
  one bias entry, and on nothing else; `entry` is that function of a row, a row, a column, a column and a number,
  so that a tile of 5000 rows and the whole array of 50000 rows are read through the same formula.

  The other program adds the three terms in the order (neighbours + bias) + self. Addition of extended reals is
  commutative and associative (with the convention -∞ + ∞ = -∞ it is still a commutative monoid), so the two orders
  agree on EVERY input, infinite entries included: `entry_eq_regrouped`. No finiteness is used anywhere.
-/
import Idealize.ShloMosaic.PureOps.Ideal
import Idealize.ShloMosaic.PureOps.Ideal.Laws
import Idealize.ShloMosaic.Lib.ValueIdx

noncomputable section

namespace Cert.GraphLayer

open Idealize.ShloMosaic Idealize.ShloMosaic.ValueIdx

/-- One row per node, 96 features. -/
abbrev Nodes : Shape := ⟨2, ![50000, 96]⟩
/-- A transposed weight matrix: input feature × output feature. -/
abbrev Weights : Shape := ⟨2, ![96, 96]⟩
/-- One bias entry per output feature. -/
abbrev Bias : Shape := ⟨1, ![96]⟩

/-- The floor of the rectifier: the word of +0.0, kept as a word (both programs print the same one). -/
abbrev floor0 : EReal := Ideal.ofBits .f32 0x00000000#32

/-- One entry of the layer's output from the data it depends on: a row of neighbourhood means against a column of
    the neighbour weights, the node's own row against a column of the self weights, one bias entry, rectified. -/
def entry (aggRow xRow wlCol wrCol : Fin 96 → EReal) (bias : EReal) : EReal :=
  max ((∑ k : Fin 96, aggRow k * wlCol k) + (∑ k : Fin 96, xRow k * wrCol k) + bias) floor0

/-- The same entry with the bias added to the neighbour term BEFORE the self term: the other order of the three-term sum. -/
theorem entry_eq_regrouped (aggRow xRow wlCol wrCol : Fin 96 → EReal) (bias : EReal) :
    entry aggRow xRow wlCol wrCol bias
      = max ((∑ k : Fin 96, aggRow k * wlCol k) + bias + (∑ k : Fin 96, xRow k * wrCol k)) floor0 := by
  unfold entry
  rw [add_right_comm]

/-- The layer's output array: entry (p, q) reads row `p` of `agg` and `x`, column `q` of `wl` and `wr`, and `b[q]`. -/
def layerOut (x agg : FVec Ideal Nodes .f32) (wl wr : FVec Ideal Weights .f32) (b : FVec Ideal Bias .f32) :
    FVec Ideal Nodes .f32 := fun i =>
  entry (fun k => agg (ix2 (⟨(i 0).val, (i 0).isLt⟩ : Fin 50000) k))
        (fun k => x (ix2 (⟨(i 0).val, (i 0).isLt⟩ : Fin 50000) k))
        (fun k => wl (ix2 k (⟨(i 1).val, (i 1).isLt⟩ : Fin 96)))
        (fun k => wr (ix2 k (⟨(i 1).val, (i 1).isLt⟩ : Fin 96)))
        (b (ix1 (⟨(i 1).val, (i 1).isLt⟩ : Fin 96)))

/-- Read at explicit coordinates. -/
theorem layerOut_ix2 (x agg : FVec Ideal Nodes .f32) (wl wr : FVec Ideal Weights .f32) (b : FVec Ideal Bias .f32)
    (p : Fin 50000) (q : Fin 96) :
    layerOut x agg wl wr b (ix2 p q)
      = entry (fun k => agg (ix2 p k)) (fun k => x (ix2 p k)) (fun k => wl (ix2 k q)) (fun k => wr (ix2 k q)) (b (ix1 q)) := rfl

/-- The entry depends only on the five pieces of data named: equal rows, columns and bias give equal entries. -/
theorem entry_congr {aggRow aggRow' xRow xRow' wlCol wlCol' wrCol wrCol' : Fin 96 → EReal} {bias bias' : EReal}
    (h1 : ∀ k, aggRow k = aggRow' k) (h0 : ∀ k, xRow k = xRow' k) (h2 : ∀ k, wlCol k = wlCol' k) (h3 : ∀ k, wrCol k = wrCol' k)
    (h4 : bias = bias') : entry aggRow xRow wlCol wrCol bias = entry aggRow' xRow' wlCol' wrCol' bias' := by
  obtain rfl : aggRow = aggRow' := funext h1
  obtain rfl : xRow = xRow' := funext h0
  obtain rfl : wlCol = wlCol' := funext h2
  obtain rfl : wrCol = wrCol' := funext h3
  obtain rfl := h4
  rfl

/-- Equal arrays give equal outputs. -/
theorem layerOut_congr {x x' agg agg' : FVec Ideal Nodes .f32} {wl wl' wr wr' : FVec Ideal Weights .f32} {b b' : FVec Ideal Bias .f32}
    (h0 : x = x') (h1 : agg = agg') (h2 : wl = wl') (h3 : wr = wr') (h4 : b = b') :
    layerOut x agg wl wr b = layerOut x' agg' wl' wr' b' := by
  subst h0 h1 h2 h3 h4
  rfl

end Cert.GraphLayer

end
-- ==== Proof.Payload.lean ====
/-
  What the kernel body computes for one tile of 5000 nodes, read at an entry.

  The body loads five blocks — the tile's rows of the node features, the tile's rows of the neighbourhood means, the two
  transposed weight matrices whole, the bias whole — narrows the four matrix operands to a 16-bit float format (at the
  ideal values a change of float format is the identity), multiplies means by neighbour weights and features by self
  weights, each product accumulated from zero, adds the two products, adds the bias repeated down the rows, and
  rectifies. So entry (p, q) of what it stores is
      max ( Σ_k means[p,k]·wl[k,q] + Σ_k feats[p,k]·wr[k,q] + b[q] , 0 ),
  the specification's `entry` of row p of the two row blocks, column q of the two weight blocks and b[q].

  A matrix product into a zero accumulator, read at (p, q), is the sum over the contracted axis of the left operand at
  (p, k) times the right at (k, q): the product's index bookkeeping names the contracted coordinate through a
  one-axis index type, which is matched with `Fin 96`.
-/
import proofs.«154942_j76132590289373_1_alg».proof.Proof.Gen.KernelIdeal.Skeleton
import proofs.«154942_j76132590289373_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.GraphLayer

/-- The left operand's row coordinate is the output's row. -/
theorem lhs_row (i : S5000x96.Idx) (κ : dot_S5000x96_S96x96_S5000x96_1_0_0_1_n_n.contr.Idx) :
    (dot_S5000x96_S96x96_S5000x96_1_0_0_1_n_n.lhsIdx i κ 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
/-- The left operand's feature coordinate is the contracted one. -/
theorem lhs_feat (i : S5000x96.Idx) (κ : dot_S5000x96_S96x96_S5000x96_1_0_0_1_n_n.contr.Idx) :
    (dot_S5000x96_S96x96_S5000x96_1_0_0_1_n_n.lhsIdx i κ 1).val = (κ ⟨0, by decide⟩).val :=
  dot_S5000x96_S96x96_S5000x96_1_0_0_1_n_n.lhsIdx_val_of_single rfl i κ
/-- The right operand's row coordinate is the contracted one. -/
theorem rhs_feat (i : S5000x96.Idx) (κ : dot_S5000x96_S96x96_S5000x96_1_0_0_1_n_n.contr.Idx) :
    (dot_S5000x96_S96x96_S5000x96_1_0_0_1_n_n.rhsIdx i κ 0).val = (κ ⟨0, by decide⟩).val :=
  dot_S5000x96_S96x96_S5000x96_1_0_0_1_n_n.rhsIdx_val_of_single rfl i κ
/-- The right operand's column coordinate is the output's column. -/
theorem rhs_col (i : S5000x96.Idx) (κ : dot_S5000x96_S96x96_S5000x96_1_0_0_1_n_n.contr.Idx) :
    (dot_S5000x96_S96x96_S5000x96_1_0_0_1_n_n.rhsIdx i κ 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- A tile product accumulated from zero, at (p, q): row p of the left operand against column q of the right. -/
theorem tile_product {φ₁ φ₂ : FTy} (a : FVec Ideal S5000x96 φ₁) (w : FVec Ideal S96x96 φ₂) (p : Fin 5000) (q : Fin 96) :
    matmul dot_S5000x96_S96x96_S5000x96_1_0_0_1_n_n none a w (constant (F := Ideal) S5000x96 .f32 0x00000000#32) (ix2 p q)
      = ∑ k : Fin 96, a (ix2 p k) * w (ix2 k q) := by
  simp only [matmul]
  rw [Ideal.matmul_constant_zero_apply, ← Equiv.sum_comp (contrEquiv1 dot_S5000x96_S96x96_S5000x96_1_0_0_1_n_n 96 rfl rfl).symm]
  refine Finset.sum_congr rfl fun k _ => ?_
  have hk := contrEquiv1_symm_val dot_S5000x96_S96x96_S5000x96_1_0_0_1_n_n 96 rfl rfl k
  have el : dot_S5000x96_S96x96_S5000x96_1_0_0_1_n_n.lhsIdx (ix2 p q) ((contrEquiv1 dot_S5000x96_S96x96_S5000x96_1_0_0_1_n_n 96 rfl rfl).symm k) = ix2 p k := funext fun ax => Fin.ext (by
    match ax with
    | ⟨0, _⟩ => exact lhs_row _ _
    | ⟨1, _⟩ => exact (lhs_feat _ _).trans hk)
  have er : dot_S5000x96_S96x96_S5000x96_1_0_0_1_n_n.rhsIdx (ix2 p q) ((contrEquiv1 dot_S5000x96_S96x96_S5000x96_1_0_0_1_n_n 96 rfl rfl).symm k) = ix2 k q := funext fun ax => Fin.ext (by
    match ax with
    | ⟨0, _⟩ => exact (rhs_feat _ _).trans hk
    | ⟨1, _⟩ => exact rhs_col _ _)
  rw [el, er]

/-- The stored value at entry (p, q) of the tile: the specification's `entry` of row p of the means block and of the
    features block, column q of the two weight blocks, and bias entry q. (Window order: `x0` is the features block,
    `x1` the means block, `x2` the neighbour weights, `x3` the self weights, `x4` the bias.) -/
theorem payload_apply (x0 x1 : Vec Ideal S5000x96 .f32) (x2 x3 : Vec Ideal S96x96 .f32) (x4 : Vec Ideal S96 .f32)
    (p : Fin 5000) (q : Fin 96) :
    k0_pay1 (F := Ideal) x0 x1 x2 x3 x4 (ix2 p q)
      = entry (fun k => x1 (ix2 p k)) (fun k => x0 (ix2 p k)) (fun k => x2 (ix2 k q)) (fun k => x3 (ix2 k q)) (x4 (ix1 q)) := by
  unfold k0_pay1 entry
  dsimp only
  rw [maximumf_apply, addf_apply, addf_apply, broadcast_apply, tile_product, tile_product,
    broadcastTo_1b_ab_apply, shapeCast_a_1a_apply]
  simp only [truncf_apply, shapeCast_self]
  rfl

end Cert.KernelIdeal.Tile

end
-- ==== Proof.Tiles.lean ====
/-
  What one grid point writes back.

  Point `t` stores, through the output's tile, the body's value of its five input blocks. Entry (p, q) of that value is
  `entry` of row p of the means block and of the features block, column q of the two weight blocks and bias entry q
  (the payload read at an entry). Those blocks are the arrays read at row 5000·t + p, at column q, at entry q (the
  block reads), and entry (p, q) of the tile is entry (5000·t + p, q) of the output array. So the tile written back is tile
  `t` of the layer's output function of the five arrays as the region finds them.

  Both halves are said first of ARBITRARY blocks and arrays related entry by entry — that a tile value which agrees with an
  array at the entries' places is the array read through the tile (`tile_ext`), and that the body's value of blocks which
  are rows / columns / entries of five arrays is the layer's output of those arrays at that row (`tile_entry_of`) — and only
  then of the blocks and arrays of the run: nothing here depends on what any array holds.
-/
import proofs.«154942_j76132590289373_1_alg».proof.Proof.Gen.KernelIdeal.Value
import proofs.«154942_j76132590289373_1_alg».proof.Proof.BlockReads
import proofs.«154942_j76132590289373_1_alg».proof.Proof.Payload

noncomputable section

namespace Cert.KernelIdeal.Whole

open Cert.KernelIdeal Cert.KernelIdeal.Gen Idealize.ShloMosaic Idealize.ShloMosaic.TcCoe Idealize.SL.Sem
open Idealize.ShloMosaic.ValueIdx Cert.GraphLayer Cert.KernelIdeal.Tile
open Idealize.ShloMosaic.Pipeline (Dat)

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a; rfl

/-- A tile value that agrees, entry by entry, with an array read at the entries' places in the array IS that array read
    through the tile. -/
theorem tile_ext (t : Fin cfg0.N) (X : Vec Ideal S5000x96 .f32) (G : S50000x96.Idx → EReal)
    (h : ∀ (p : Fin 5000) (q : Fin 96), X (ix2 p q) = G (((cfg0.win 5).blk t).view.emb (ix2 p q))) :
    (cfg0.win 5).cut (grid0.coords t) X = ((cfg0.win 5).blk t).view.read (Elt Ideal) G := by
  funext j
  obtain ⟨p, q, rfl⟩ : ∃ (p : Fin 5000) (q : Fin 96), j = ix2 p q := ⟨j 0, j 1, eq_ix2 j⟩
  exact h p q

/-- The body's value of five blocks, at entry (p, q), when row p of the two row blocks is row P of two arrays and the
    weight and bias blocks are three arrays whole: the layer's output of the five arrays at (P, q). -/
theorem tile_entry_of (x0 x1 : Vec Ideal S5000x96 .f32) (x2 x3 : Vec Ideal S96x96 .f32) (x4 : Vec Ideal S96 .f32)
    (A0 A1 : S50000x96.Idx → EReal) (A2 A3 : S96x96.Idx → EReal) (A4 : S96.Idx → EReal)
    (p : Fin 5000) (q : Fin 96) (P : Fin 50000)
    (h0 : ∀ k : Fin 96, x0 (ix2 p k) = A0 (ix2 P k)) (h1 : ∀ k : Fin 96, x1 (ix2 p k) = A1 (ix2 P k))
    (h2 : ∀ k : Fin 96, x2 (ix2 k q) = A2 (ix2 k q)) (h3 : ∀ k : Fin 96, x3 (ix2 k q) = A3 (ix2 k q))
    (h4 : x4 (ix1 q) = A4 (ix1 q)) :
    k0_pay1 (F := Ideal) x0 x1 x2 x3 x4 (ix2 p q) = layerOut A0 A1 A2 A3 A4 (ix2 P q) :=
  (payload_apply x0 x1 x2 x3 x4 p q).trans
    ((entry_congr h1 h0 h2 h3 h4).trans (layerOut_ix2 A0 A1 A2 A3 A4 P q).symm)

/-- The layer's output function of the five arrays as the kernel's one region finds them. -/
def outAtEntry (c : Dev nD) : S50000x96.Idx → EReal :=
  layerOut (V m c main_arg0) (V m c main_v21) (V m c main_v22) (V m c main_v23) (V m c main_arg3)

/-- WHAT POINT `t` WRITES BACK is tile `t` of the layer's output function of the arrays as the region finds them. -/
theorem flushed_eq (c : Dev nD) (t : Fin cfg0.N) :
    (dats m 0 c).flushed 5 t = ((cfg0.win 5).blk t).view.read (Elt Ideal) (outAtEntry m c) := by
  rw [Cert.KernelIdeal.Value.flushed5]
  unfold out0_5 outAtEntry
  rw [View.canon_unit_zero zero2]
  simp only [View.ld_unit_zero (S := S5000x96) zero2, View.ld_unit_zero (S := S96x96) zero2, View.ld_unit_zero (S := S96) zero1]
  refine tile_ext t _ _ fun p q => ?_
  refine Eq.trans ?_ (congrArg (layerOut (V m c main_arg0) (V m c main_v21) (V m c main_v22) (V m c main_v23) (V m c main_arg3)) (out_place t p q)).symm
  exact tile_entry_of (iblk m c 0 t) (iblk m c 1 t) (iblk m c 2 t) (iblk m c 3 t) (iblk m c 4 t)
    (V m c main_arg0) (V m c main_v21) (V m c main_v22) (V m c main_v23) (V m c main_arg3) p q (rowOf t p)
    (feats_block m c t p) (means_block m c t p) (fun k => wl_block m c t k q) (fun k => wr_block m c t k q) (bias_block m c t q)

end Cert.KernelIdeal.Whole

end
-- ==== Proof.Cover.lean ====
/-
  The ten tiles cover the output array.

  Point `t`'s output block holds rows 5000·t … 5000·t + 4999 and all 96 columns, so node `r` lies in the tile of point
  r / 5000 (integer division), which is one of the ten points because r < 50000.
-/
import proofs.«154942_j76132590289373_1_alg».proof.Proof.BlockReads

noncomputable section

namespace Cert.KernelIdeal.Whole

open Cert.KernelIdeal Cert.KernelIdeal.Gen Idealize.ShloMosaic Idealize.ShloMosaic.TcCoe Idealize.SL.Sem

/-- An index of the output array is in point `t`'s tile iff each coordinate is in the tile's range on its axis. -/
theorem mem_tile (t : Fin cfg0.N) (i : S50000x96.Idx) :
    i ∈ ((cfg0.win 5).blk t).view.set ↔ ∀ a : Fin 2, win0_5.index t a * S5000x96.size a ≤ (i a).val ∧ (i a).val < win0_5.index t a * S5000x96.size a + S5000x96.size a := by
  show i ∈ ((View.whole main_v24).slice (win0_5.rect t)).set ↔ _
  rw [View.set_slice_whole, Rect.mem_set_unit]
  exact Iff.rfl

/-- Node `r` is in the tile of point r / 5000. -/
theorem covered (i : S50000x96.Idx) :
    ∃ t : Fin cfg0.N, (cfg0.win 5).flush t = true ∧ i ∈ ((cfg0.win 5).blk t).view.set := by
  have hi0 : (i 0).val < 50000 := (i 0).isLt
  have hi1 : (i 1).val < 96 := (i 1).isLt
  have hN : cfg0.N = 10 := N_0
  have hlt : (i 0).val / 5000 < cfg0.N := by rw [hN]; omega
  obtain ⟨-, -, -, -, -, -, -, -, -, e50, e51⟩ := block_index ⟨(i 0).val / 5000, hlt⟩
  have e50' : win0_5.index ⟨(i 0).val / 5000, hlt⟩ (0 : Fin 2) = (i 0).val / 5000 := e50
  refine ⟨⟨(i 0).val / 5000, hlt⟩, flush0_5 _, ?_⟩
  rw [mem_tile]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e50']; omega
  | ⟨1, _⟩ =>
    show win0_5.index ⟨(i 0).val / 5000, hlt⟩ (1 : Fin 2) * 96 ≤ (i 1).val ∧ (i 1).val < win0_5.index ⟨(i 0).val / 5000, hlt⟩ (1 : Fin 2) * 96 + 96
    rw [e51]; omega

end Cert.KernelIdeal.Whole

end
-- ==== Proof.HostPrefix.lean ====
/-
  What the kernel's one region finds in the three arrays the host computes for it.

  Before the region the kernel's program runs thirty host operations on the arguments. Three of the results are windows
  of the region: the neighbourhood means (window 1), and the two weight matrices transposed (windows 2 and 3). The
  reference program begins with the SAME operations, in the same order, on the same arguments, and its read-back names
  the corresponding stages. So each of the three arrays, as the region finds it, is the reference's stage of the
  arguments as launched — the two programs' texts of these operations are one term, and nothing is computed to see it:

    * the means: select source and destination node of every edge out of the edge list, wrap a negative source index,
      gather the source rows of the features, add them into the destination rows of a zero array, count each
      destination's edges the same way, and divide by the count, at least one;
    * a transposed weight matrix: the argument with its two axes swapped.

  The means are never read at an index: how an entry of them depends on the edge list plays no part in the comparison.
-/
import proofs.«154942_j76132590289373_1_alg».proof.Proof.Gen.KernelIdeal.Frame
import proofs.«154942_j76132590289373_1_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- Window 2's array, as the region finds it, is the neighbour weights transposed. -/
theorem wl_entry (c : Dev nD) :
    (V m c main_v22 : S96x96.Idx → EReal)
      = Cert.ReferenceIdeal.Read.val_main_v22 (F := Ideal) (m ((c : Thread nD τ).loc main_arg2)) := by
  dsimp only [V, hostOps0]
  after_results
  rfl

/-- Window 3's array, as the region finds it, is the self weights transposed. -/
theorem wr_entry (c : Dev nD) :
    (V m c main_v23 : S96x96.Idx → EReal)
      = Cert.ReferenceIdeal.Read.val_main_v27 (F := Ideal) (m ((c : Thread nD τ).loc main_arg4)) := by
  dsimp only [V, hostOps0]
  after_results
  rfl

-- the thirty operations before the region are folded once, to the one buffer asked for
set_option maxHeartbeats 4000000 in
/-- Window 1's array, as the region finds it, is the neighbourhood means of the features over the edge list. -/
theorem means_entry (c : Dev nD) :
    (V m c main_v21 : S50000x96.Idx → EReal)
      = Cert.ReferenceIdeal.Read.val_main_v21 (F := Ideal) (m ((c : Thread nD τ).loc main_arg0)) (m ((c : Thread nD τ).loc main_arg1)) := by
  dsimp only [V, hostOps0]
  after_results
  rfl

end Cert.KernelIdeal.Entry

end
-- ==== Proof.KernelRun.lean ====
/-
  The kernel's run, read: its result array as the layer's output function of the ARGUMENTS.

  The ten tiles written back cover the output array, and tile `t` is tile `t` of the layer's output function of the five
  arrays the region finds; so after the run the output array is that function (`final`). Of those five arrays two are
  arguments no host operation has written (the features and the bias), and three are what the host operations before the
  region made of the arguments: the neighbourhood means of the features over the edge list and the two weight matrices
  transposed, each the same term as the reference program's stage of that name (`arrays_at_entry`). Hence the run ends
  with the result array at the layer's output of the features, those means, those transposes and the bias, and with the
  five arguments unchanged (`run`).
-/
import proofs.«154942_j76132590289373_1_alg».proof.Proof.Gen.KernelIdeal.Value
import proofs.«154942_j76132590289373_1_alg».proof.Proof.Tiles
import proofs.«154942_j76132590289373_1_alg».proof.Proof.Cover
import proofs.«154942_j76132590289373_1_alg».proof.Proof.HostPrefix

noncomputable section

namespace Cert.KernelIdeal.Whole

open Cert.KernelIdeal Cert.KernelIdeal.Gen Idealize.ShloMosaic Idealize.ShloMosaic.TcCoe Idealize.SL.Sem
open Cert.GraphLayer
open Idealize.ShloMosaic.Pipeline (Dat)

variable (m : (ℓ : Loc nD τ sig) → Buf (Elt Ideal) ℓ) (ρ : Dev nD → PrngReg)

/-- THE OUTPUT ARRAY after the run: the layer's output function of the arrays as the region finds them. -/
theorem final (c : Dev nD) : (dats m 0 c).arrAt 5 cfg0.N = outAtEntry m c :=
  (dats m 0 c).arrAt_eq_of_cover 5 (outAtEntry m c) (fun t _ => flushed_eq m c t) covered

/-- The layer's output of the arguments: the features, their neighbourhood means over the edge list, the two weight
    matrices transposed, the bias. The three computed arrays are named by the reference program's stages. -/
def outOfArgs (c : Dev nD) : S50000x96.Idx → EReal :=
  layerOut (m ((c : Thread nD τ).loc main_arg0))
    (Cert.ReferenceIdeal.Read.val_main_v21 (F := Ideal) (m ((c : Thread nD τ).loc main_arg0)) (m ((c : Thread nD τ).loc main_arg1)))
    (Cert.ReferenceIdeal.Read.val_main_v22 (F := Ideal) (m ((c : Thread nD τ).loc main_arg2)))
    (Cert.ReferenceIdeal.Read.val_main_v27 (F := Ideal) (m ((c : Thread nD τ).loc main_arg4)))
    (m ((c : Thread nD τ).loc main_arg3))

/-- The five arrays the region finds, in terms of the arguments. -/
theorem arrays_at_entry (c : Dev nD) : outAtEntry m c = outOfArgs m c := by
  unfold outAtEntry outOfArgs
  exact layerOut_congr (V_main_arg0 m c) (Cert.KernelIdeal.Entry.means_entry m c) (Cert.KernelIdeal.Entry.wl_entry m c)
    (Cert.KernelIdeal.Entry.wr_entry m c) (V_main_arg3 m c)

/-- The kernel's run: the result array at the layer's output of the arguments, the arguments unchanged. -/
theorem run : θ_run defs (onTc (τ := τ) (main (F := Ideal))) ⟨m, fun _ => 0, ρ⟩ fun r => ∀ c : Dev nD,
      r.2.mem ((c : Thread nD τ).loc main_v24) = outOfArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (arrays_at_entry m c)), (h c).2⟩)
    (Cert.KernelIdeal.Value.run_blocks m ρ)

end Cert.KernelIdeal.Whole

end
-- ==== Proof.RefSide.lean ====
/-
  The reference program's result is the layer's output function.

  Its last stage is  max( (agg·wl + bias) + x·wr , 0 )  entry by entry, where `agg` (the neighbourhood means), `wl` and
  `wr` (the two weight matrices transposed) are themselves earlier stages of the same program. Read at node `p` and
  output feature `q`:
    * each matrix product is the sum over the 96 input features `k` of (row p, k) times (k, column q): the left
      operand is read at (p, k) and the right at (k, q);
    * the bias is first laid out as one row and then repeated down the 50000 rows, so entry (p, q) of that array is b[q];
    * the rectifier compares with the word of +0.0.
  That is `entry` with its three terms in the other order, which is the same number (`entry_eq_regrouped`).
  The neighbourhood means are never opened here: they enter only as an array.
-/
import proofs.«154942_j76132590289373_1_alg».proof.Proof.Gen.ReferenceIdeal.Read
import proofs.«154942_j76132590289373_1_alg».proof.Proof.Spec

noncomputable section

namespace Cert.ReferenceIdeal.RefValue

open Cert.ReferenceIdeal Cert.ReferenceIdeal.Read Idealize.ShloMosaic Idealize.ShloMosaic.ValueIdx Cert.GraphLayer

/-- Left operand of the neighbour product at (p, q), summand k: row p, feature k. -/
theorem lidx_nbr (p : Fin 50000) (q k : Fin 96) : lidx_main_v23 (ix2 p q) k = ix2 p k :=
  funext fun a => Fin.ext (by match a with | ⟨0, _⟩ => rfl | ⟨1, _⟩ => rfl)
/-- Right operand of the neighbour product: feature k, column q. -/
theorem ridx_nbr (p : Fin 50000) (q k : Fin 96) : ridx_main_v23 (ix2 p q) k = ix2 k q :=
  funext fun a => Fin.ext (by match a with | ⟨0, _⟩ => rfl | ⟨1, _⟩ => rfl)
/-- Left operand of the self product: row p, feature k. -/
theorem lidx_self (p : Fin 50000) (q k : Fin 96) : lidx_main_v28 (ix2 p q) k = ix2 p k :=
  funext fun a => Fin.ext (by match a with | ⟨0, _⟩ => rfl | ⟨1, _⟩ => rfl)
/-- Right operand of the self product: feature k, column q. -/
theorem ridx_self (p : Fin 50000) (q k : Fin 96) : ridx_main_v28 (ix2 p q) k = ix2 k q :=
  funext fun a => Fin.ext (by match a with | ⟨0, _⟩ => rfl | ⟨1, _⟩ => rfl)
/-- The bias, laid out as a row and repeated down the rows, read at (p, q): entry q. -/
theorem idx_bias (p : Fin 50000) (q : Fin 96) : idx_main_v24 (idx_main_v25 (ix2 p q)) = ix1 q :=
  funext fun a => Fin.ext (by match a with | ⟨0, _⟩ => rfl)

/-- The reference's result, as a function of its five arguments, is the layer's output at the arguments and at its own
    three intermediate arrays: the neighbourhood means and the two transposed weight matrices. -/
theorem result_eq (x0 : (⟨S50000x96, .f32⟩ : BufTy).Contents (Elt Ideal)) (x1 : (⟨S2x800000, .i32⟩ : BufTy).Contents (Elt Ideal))
    (x2 : (⟨S96x96, .f32⟩ : BufTy).Contents (Elt Ideal)) (x3 : (⟨S96, .f32⟩ : BufTy).Contents (Elt Ideal))
    (x4 : (⟨S96x96, .f32⟩ : BufTy).Contents (Elt Ideal)) :
    val_main_v30 (F := Ideal) x0 x1 x2 x3 x4
      = layerOut x0 (val_main_v21 (F := Ideal) x0 x1) (val_main_v22 (F := Ideal) x2) (val_main_v27 (F := Ideal) x4) x3 := by
  funext i
  obtain ⟨p, q, rfl⟩ : ∃ (p : Fin 50000) (q : Fin 96), i = ix2 p q := ⟨i 0, i 1, eq_ix2 i⟩
  rw [layerOut_ix2, entry_eq_regrouped]
  rw [val_main_v30_apply, val_main_v29_apply, val_main_v26_apply, val_main_v23_apply, val_main_v25_apply,
    val_main_v24_apply, val_main_v28_apply, val_main_call0_v0_apply, val_main_call0_cst_apply]
  simp only [lidx_nbr, ridx_nbr, lidx_self, ridx_self, idx_bias, Ideal.addf_def, Ideal.maximumf_def, Ideal.ofBits_def]

end Cert.ReferenceIdeal.RefValue

end
-- ==== Proof.lean ====
/-
  Two programs for one graph layer agree on every input.

  The layer: every node averages the feature rows of the nodes that send it an edge (a node nobody points to gets zeros),
  multiplies that mean by one 96 × 96 weight matrix and its own feature row by another, adds a bias, and rectifies.
  Both programs compute the means with the same host operations (select the edge list's two rows, wrap negative source
  indices, gather, two scatter-adds, a maximum with one, a division) and transpose the two weight matrices the same way.
  They differ in the last step only. One runs it as a kernel over ten tiles of 5000 nodes: two matrix products
  accumulated from zero with the operands narrowed to a 16-bit float format, then  (neighbours + self) + bias,  then the
  maximum with zero. The other runs it on whole arrays as  (neighbours + bias) + self,  then the same maximum.

  Over the extended reals, with every float operation exact and a change of float format the identity, the two are one
  function of the arguments: a matrix product read at an entry is a sum of 96 products on both sides, the tiles' rows are
  the array's rows, and the three-term sum may be taken in either order because extended-real addition is commutative and
  associative — for all inputs, so the finiteness of the inputs is never used.

  The pieces: `GraphLayer` states the last step as one function and the regrouping; `RefValue.result_eq` reads the
  reference's last stage as that function; `Tile.payload_apply` reads the kernel body's value at an entry; the block reads,
  `flushed_eq`, `covered` and `final` carry tiles to the whole array; `Entry` identifies what the host operations hand the
  kernel; `Whole.run` is the kernel's run read back. The frames of the two kernel programs are the generated ones, the
  reference's frame is its generated run with the result forgotten, and no operation was rewritten by idealization, so
  there is nothing to preserve.
-/
import proofs.«154942_j76132590289373_1_alg».proof.Defs
import proofs.«154942_j76132590289373_1_alg».proof.Proof.Gen.Kernel
import proofs.«154942_j76132590289373_1_alg».proof.Proof.Gen.Kernel.Skeleton
import proofs.«154942_j76132590289373_1_alg».proof.Proof.Gen.Kernel.Launch
import proofs.«154942_j76132590289373_1_alg».proof.Proof.Gen.Kernel.Points
import proofs.«154942_j76132590289373_1_alg».proof.Proof.Gen.Kernel.Frame
import proofs.«154942_j76132590289373_1_alg».proof.Proof.Gen.KernelIdeal
import proofs.«154942_j76132590289373_1_alg».proof.Proof.Gen.KernelIdeal.Skeleton
import proofs.«154942_j76132590289373_1_alg».proof.Proof.Gen.KernelIdeal.Launch
import proofs.«154942_j76132590289373_1_alg».proof.Proof.Gen.KernelIdeal.Points
import proofs.«154942_j76132590289373_1_alg».proof.Proof.Gen.KernelIdeal.Frame
import proofs.«154942_j76132590289373_1_alg».proof.Proof.Gen.ReferenceIdeal
import proofs.«154942_j76132590289373_1_alg».proof.Proof.Gen.Pre_finite_inputs
import proofs.«154942_j76132590289373_1_alg».proof.Proof.Gen.KernelIdeal.Value
import proofs.«154942_j76132590289373_1_alg».proof.Proof.Gen.ReferenceIdeal.Run
import proofs.«154942_j76132590289373_1_alg».proof.Proof.Gen.ReferenceIdeal.Read
import proofs.«154942_j76132590289373_1_alg».proof.Proof.KernelRun
import proofs.«154942_j76132590289373_1_alg».proof.Proof.RefSide
import Idealize.ShloMosaic.Adequacy
import Idealize.ShloMosaic.Init

noncomputable section

namespace Cert.Proof

open Idealize.ShloMosaic Idealize.ShloMosaic.TcCoe Idealize.SL.Sem

namespace Claims

variable [hKernel : Cert.Kernel.Facts] [hKernelIdeal : Cert.KernelIdeal.Facts] [hReferenceIdeal : Cert.ReferenceIdeal.Facts]
  [hPre : Cert.Pre_finite_inputs.Facts]

/-- The word-level kernel program runs and leaves its arguments as they were. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference program's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From memories that agree on the five arguments the two idealized programs both run and end with the same result
    array — the layer's output of the arguments — and unchanged arguments. -/
theorem algebraic : Cert.algebraic_KernelIdeal_ReferenceIdeal := by
  intro m ρ m' ρ' _ hagree
  refine ⟨fun c => Cert.KernelIdeal.Whole.outOfArgs m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.result_eq,
    (hagree c).1, (hagree c).2.1, (hagree c).2.2.1, (hagree c).2.2.2.1, (hagree c).2.2.2.2]
  rfl

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, Claims.preserves, Claims.algebraic⟩

end Cert.Proof

end
